-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S512x512 : Shape := ⟨2, ![512, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4096x512 .f32) (main_arg1 : FVec F S4096x4096 .f32) (main_arg2 : FVec F S512x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S4096x512 : Shape := ⟨2, ![4096, 512]⟩
abbrev S4096x4096 : Shape := ⟨2, ![4096, 4096]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S4096x512, .f32⟩
  | .local _ .vmem, ⟨0, _⟩ => ⟨S4096x512, .f32⟩
  | .local _ .vmem, ⟨1, _⟩ => ⟨S512x512, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x512, .f32⟩
  | .local _ .vmem, ⟨7, _⟩ => ⟨S512x512, .f32⟩
  | .local _ .vmem, ⟨8, _⟩ => ⟨S4096x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4096x512_S4096x512_0_0 : ∀ a, (![0, 0] : Fin 2 → Nat) a + S4096x512.size a ≤ S4096x512.size a
  h_S4096x512 : 0 < S4096x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  shapeCasts_S4096x512_S4096x512 : S4096x512.ShapeCasts S4096x512
  packedbf16_S4096x512_S4096x512_0_0 : (Rect.unit (s := S4096x512) ![0, 0] S4096x512.size inb_S4096x512_S4096x512_0_0).PackedRows (EltTy.packing .bf16)
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  inb_S4096x512_S2048x512_0_0 : ∀ a, (![0, 0] : Fin 2 → Nat) a + S2048x512.size a ≤ S4096x512.size a
  h_S2048x512 : 0 < S2048x512.numel
  inb_S4096x512_S2048x512_2048_0 : ∀ a, (![2048, 0] : Fin 2 → Nat) a + S2048x512.size a ≤ S4096x512.size a
  broadcasts_S512x1_S512x512 : S512x1.Broadcasts S512x512
  dot_S4096x512_S512x512_S4096x512_1_0_0_1_n_n_wf : DotDims.WF S4096x512 S512x512 S4096x512 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S4096x512.size a
  hwx0_0 : ∀ i : grid0.Coords, EltTy.bits .f32 = 32 ∨ (Rect.block (s := S4096x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x4096.size a
  hwx0_2 : ∀ i : grid0.Coords, EltTy.bits .f32 = 32 ∨ (Rect.block (s := S4096x4096) S512x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x4096.size a
  hwx0_3 : ∀ i : grid0.Coords, EltTy.bits .f32 = 32 ∨ (Rect.block (s := S4096x4096) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x512.size a
  hwx0_4 : ∀ i : grid0.Coords, EltTy.bits .f32 = 32 ∨ (Rect.block (s := S4096x512) S512x512.size (cc0_transform_4 i) (hinb0_4 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S4096x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S512x512 : Shape := ⟨2, ![512, 512]⟩
abbrev S_ : Shape := ⟨0, ![]⟩
abbrev S4096 : Shape := ⟨1, ![4096]⟩
abbrev S4096x1 : Shape := ⟨2, ![4096, 1]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S512x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x512, .f32⟩
  | .hbm, ⟨8, _⟩ => ⟨S4096x512, .f32⟩
  | .hbm, ⟨9, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S4096x1_S4096x512_0_1 : S4096x1.BroadcastsInDim S4096x512 (![0, 1] : Fin 2 → Fin S4096x512.rank)
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf

class Facts : Prop extends Facts₀ where

variable [Facts]
-- ==== Proof.LibWholeStore.lean ====
import Idealize.ShloMosaic.Lib.Pipeline.Value
import Idealize.ShloMosaic.Lib.Pipeline.Frame

/-
  Whole-buffer loads and stores read back (any signature, memory space, shape and element type):

  * read_after_whole_store — after a store through the rectangle that is the whole shape (zero offsets, however the zeros
    are spelt), made last, the buffer reads the stored value, whatever it held and whatever was stored before;
  * load_whole — a load through that rectangle of a whole memref holding `X` reads `X`.
-/

namespace Cert.LibWholeStore

open Idealize.ShloMosaic

/-- A store through the whole-shape rectangle, made last, is what the buffer then reads. -/
theorem read_after_whole_store {sig : RefSig} {κ : Kind} {sp : Space} {Val : EltTy → Type} {S : Shape} {e : EltTy}
    (v : View sig κ sp S e) (f : v.ty.Contents Val)
    {off : Fin S.rank → ℕ} (hz : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  subst hz; funext y
  have e := View.read_writes_cons_emb v f (Rect.whole S) w L y
  rw [Rect.emb_whole_apply] at e
  exact e

/-- A load through the whole-shape rectangle of a whole memref reads its contents. -/
theorem load_whole {sig : RefSig} {κ : Kind} {sp : Space} {Val : EltTy → Type} {S : Shape} {e : EltTy}
    (m : Memref sig κ sp S e) (hm : m.IsWhole)
    {off : Fin S.rank → ℕ} (hz : off = fun _ => 0) (inb : ∀ a, off a + S.size a ≤ S.size a) (X : S.Idx → Val e) :
    View.readAt Val m.view (Rect.unit off S.size inb).toLoadRect (hm.unread X) = X := by
  rw [View.readAt_eq_ld, hm.read_unread, View.ld_unit_zero hz]

end Cert.LibWholeStore
-- ==== Proof.K.Body.lean ====
/-
  The kernel body, run once per control case.

  The grid has nine points. At point 0 the body forms the product x·W of the two resident input blocks and keeps it in its
  scratch buffer; at every later point s it reads the two half-row blocks of the adjacency matrix (columns [0,2048) and
  [2048,4096) of rows [512(s-1), 512s)), the two halves of the kept product, and stores their quotient block. Each case is
  stated on arbitrary whole staging memrefs: what it is handed, and what it hands back.
-/
import proofs.«162927_g35794257445170_cont_sun_m_1054_16_alg».proof.Proof.Gen.Kernel.Launch
import proofs.«162927_g35794257445170_cont_sun_m_1054_16_alg».proof.Proof.Gen.Kernel.Skeleton
import proofs.«162927_g35794257445170_cont_sun_m_1054_16_alg».proof.Proof.Gen.Kernel.Points
import proofs.«162927_g35794257445170_cont_sun_m_1054_16_alg».proof.Proof.LibWholeStore
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀

variable {F : FTy → Type} [FloatOps F]

local notation "𝕄" => MT nD τ sig Unit (Elt F) ℕ (UR sig nD τ) ℕ

/-! ## The two conditions, over the grid -/

/-- The first conditional's test: the grid coordinate is zero. -/
abbrev atFirst (i : grid0.Coords) : Prop :=
  (Scalar.cmpi .ne (Scalar.extui (Scalar.cmpi .eq (BitVec.ofNat 32 (i 0).val) 0#32)) 0#32) = 1#1
theorem atFirst_iff : ∀ t : Fin cfg0.N, atFirst (grid0.coords t) ↔ t.val = 0 :=
  (by decide +kernel : ∀ t : Fin grid0.N, atFirst (grid0.coords t) ↔ t.val = 0)
/-- The second conditional's test: the grid coordinate is positive. -/
abbrev atLater (i : grid0.Coords) : Prop := k0_cond2 i = 1#1
theorem atLater_iff : ∀ t : Fin cfg0.N, atLater (grid0.coords t) ↔ t.val ≠ 0 :=
  (by decide +kernel : ∀ t : Fin grid0.N, atLater (grid0.coords t) ↔ t.val ≠ 0)

/-- The zero offsets of a rank-2 rectangle. -/
theorem off00 : (![0, 0] : Fin 2 → ℕ) = fun _ => 0 := by
  funext a; fin_cases a <;> rfl

/-! ## The halves of the kept product -/

/-- Rows [0, 2048) of a [4096, 512] array. -/
def loHalf {φ : EltTy} (h : S4096x512.Idx → Elt F φ) : S2048x512.Idx → Elt F φ :=
  View.ld h (Rect.unit (s := S4096x512) ![0, 0] S2048x512.size Facts₀.inb_S4096x512_S2048x512_0_0)
/-- Rows [2048, 4096) of a [4096, 512] array. -/
def hiHalf {φ : EltTy} (h : S4096x512.Idx → Elt F φ) : S2048x512.Idx → Elt F φ :=
  View.ld h (Rect.unit (s := S4096x512) ![2048, 0] S2048x512.size Facts₀.inb_S4096x512_S2048x512_2048_0)

/-! ## The first point -/

set_option maxHeartbeats 1000000 in
/-- At the first point the body reads the two resident blocks `x`, `w` and leaves the scratch buffer at their product
    (the payload `k0_pay1 x w`), whatever it held; the other buffers are not touched. -/
theorem run_first (c : Dev nD) (i : grid0.Coords)
    (arg1 : Memref sig .tc .vmem S4096x512 .f32) (harg1 : arg1.IsWhole) (arg2 : Memref sig .tc .vmem S512x512 .f32) (harg2 : arg2.IsWhole)
    (arg3 : Memref sig .tc .vmem S512x2048 .f32) (harg3 : arg3.IsWhole) (arg4 : Memref sig .tc .vmem S512x2048 .f32) (harg4 : arg4.IsWhole)
    (arg5 : Memref sig .tc .vmem S512x512 .f32) (harg5 : arg5.IsWhole) (arg6 : Memref sig .tc .vmem S4096x512 .bf16) (harg6 : arg6.IsWhole)
    (hc0 : atFirst i) (hc1 : ¬ atLater i)
    (x : Vec F S4096x512 .f32) (w : Vec F S512x512 .f32) (E : Set ℕ) (K : PUnit → sProp 𝕄) :
    iprop(owns (c : Thread nD τ) arg1 fullShare x ∗ owns (c : Thread nD τ) arg2 fullShare w
        ∗ (∃ d, owns (c : Thread nD τ) arg6 fullShare d)
        ∗ (iprop(owns (c : Thread nD τ) arg1 fullShare x ∗ owns (c : Thread nD τ) arg2 fullShare w
            ∗ owns (c : Thread nD τ) arg6 fullShare (k0_pay1 x w)) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  unfold owns
  iintro ⟨⟨%f1, %hf1, H1⟩, ⟨%f2, %hf2, H2⟩, ⟨%d6, %f6, -, H6⟩, Hk⟩
  obtain rfl := harg1.eq_unread hf1; obtain rfl := harg2.eq_unread hf2
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  iexists _; isplitr
  swap; · iexact H6
  ipureintro
  rw [Cert.LibWholeStore.read_after_whole_store _ _ off00, Cert.LibWholeStore.load_whole _ harg1 off00,
    Cert.LibWholeStore.load_whole _ harg2 off00]

/-! ## A later point -/

set_option maxHeartbeats 1000000 in
/-- At a later point the body reads the two adjacency half-blocks `a1`, `a2` and the kept product `h`, and leaves the
    output buffer at the quotient block (the payload `k0_pay2` of the half-blocks and the two halves of `h`), whatever it
    held; the inputs and the scratch come back as they were. -/
theorem run_later (c : Dev nD) (i : grid0.Coords)
    (arg1 : Memref sig .tc .vmem S4096x512 .f32) (harg1 : arg1.IsWhole) (arg2 : Memref sig .tc .vmem S512x512 .f32) (harg2 : arg2.IsWhole)
    (arg3 : Memref sig .tc .vmem S512x2048 .f32) (harg3 : arg3.IsWhole) (arg4 : Memref sig .tc .vmem S512x2048 .f32) (harg4 : arg4.IsWhole)
    (arg5 : Memref sig .tc .vmem S512x512 .f32) (harg5 : arg5.IsWhole) (arg6 : Memref sig .tc .vmem S4096x512 .bf16) (harg6 : arg6.IsWhole)
    (hc0 : ¬ atFirst i) (hc1 : atLater i)
    (a1 a2 : Vec F S512x2048 .f32) (h : Vec F S4096x512 .bf16) (E : Set ℕ) (K : PUnit → sProp 𝕄) :
    iprop(owns (c : Thread nD τ) arg3 fullShare a1 ∗ owns (c : Thread nD τ) arg4 fullShare a2
        ∗ (∃ d, owns (c : Thread nD τ) arg5 fullShare d) ∗ owns (c : Thread nD τ) arg6 fullShare h
        ∗ (iprop(owns (c : Thread nD τ) arg3 fullShare a1 ∗ owns (c : Thread nD τ) arg4 fullShare a2
            ∗ owns (c : Thread nD τ) arg5 fullShare (k0_pay2 a1 a2 (loHalf h) (hiHalf h))
            ∗ owns (c : Thread nD τ) arg6 fullShare h) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  unfold owns
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [Cert.LibWholeStore.read_after_whole_store _ _ off00, Cert.LibWholeStore.load_whole _ harg3 off00,
      Cert.LibWholeStore.load_whole _ harg4 off00, View.readAt_eq_ld, View.readAt_eq_ld, harg6.read_unread]
    rfl
  iexists _; isplitr; · ipureintro; exact hf6
  iexact H6

end Cert.Kernel.Hand

end
-- ==== Proof.K.Data.lean ====
/-
  The proof data of the one pipelined call, and its body obligation.

  Every input window's staging buffer holds, at every point, the block of its array the index map selects there (the two
  resident blocks never move; the two adjacency half-blocks move to row block s-1 at point s, and stay at row block 0 over
  points 0 and 1). The scratch buffer holds anything before the first point and the product of the two resident blocks
  ever after. The output's buffer is left alone at the first point, which does not write it back, and holds the
  quotient block at every later point.
-/
import proofs.«162927_g35794257445170_cont_sun_m_1054_16_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀

variable {F : FTy → Type} [FloatOps F]

local notation "𝕄" => MT nD τ sig Unit (Elt F) ℕ (UR sig nD τ) ℕ

variable (m : (ℓ : Loc nD τ sig) → Buf (Elt F) ℓ)

/-- The TensorCore buffers as the region finds them: @main runs nothing before it. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The product of the two resident blocks, as the first point leaves it in the scratch buffer. -/
def kept (c : Dev nD) : Vec F S4096x512 .bf16 := k0_pay1 (iblk m c 0 t0_0) (iblk m c 1 t0_0)

/-- The quotient block a later point `t` stores: from the adjacency half-blocks at `t` and the two halves of the product. -/
def outAt (c : Dev nD) (t : Fin cfg0.N) : Vec F S512x512 .f32 :=
  k0_pay2 (iblk m c 2 t) (iblk m c 3 t) (loHalf (kept m c)) (hiHalf (kept m c))

/-- The scratch buffer as a memref. -/
abbrev scM : Memref sig .tc .vmem S4096x512 .bf16 := Memref.whole cc0_scratch0

/-- The region invariant before position `n`: the scratch at anything before the first point, at the product afterwards. -/
def PhiS (c : Dev nD) : ℕ → sProp 𝕄
  | 0 => iprop(∃ d, owns (c : Thread nD τ) scM fullShare d)
  | _ + 1 => owns (c : Thread nD τ) scM fullShare (kept m c)

theorem PhiS_pos (c : Dev nD) (n : ℕ) (hn : n ≠ 0) : PhiS m c n = owns (c : Thread nD τ) scM fullShare (kept m c) := by
  cases n with
  | zero => exact absurd rfl hn
  | succ n => rfl

/-- The proof data: the arrays as the region finds them; each input's buffer at its block; the output's at the quotient
    block; the adjacency matrix, read through two windows, held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-! ## What the body finds in the inputs' buffers -/

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## Where the output window is idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- At the first point the body stores nothing into the output's buffer, -/
theorem idle4_first : ∀ t : Fin cfg0.N, ¬ atLater (grid0.coords t) → cfg0.idle 4 (grid0.coords t) = true := by decide +kernel
/-- and the pipeline does not write it back there (the next point has the same block index); -/
theorem noFlush4_first : ∀ t : Fin cfg0.N, ¬ atLater (grid0.coords t) → (cfg0.win 4).flush t = false := by decide +kernel
/-- at every later point the body stores the whole block. -/
theorem live4_later : ∀ t : Fin cfg0.N, atLater (grid0.coords t) → cfg0.idle 4 (grid0.coords t) = false := by decide +kernel

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_in m c 0 t (live0 t), leaves_in m c 1 t (live1 t), leaves_in m c 2 t (live2 t), leaves_in m c 3 t (live3 t),
    after0, after1, after2, after3]
  by_cases hz : t.val = 0
  · have h0 : atFirst (grid0.coords t) := (atFirst_iff t).mpr hz
    have h1 : ¬ atLater (grid0.coords t) := fun h => (atLater_iff t).mp h hz
    rw [Dat.leavesExact_idle (dats m 0 c) 4 t (idle4_first t h1) (noFlush4_first t h1)]
    obtain rfl : t = t0_0 := Fin.ext hz
    rw [show PhiS m c ((t0_0 : Fin cfg0.N).val + 1) = owns (c : Thread nD τ) scM fullShare (kept m c) from rfl,
      show PhiS m c (t0_0 : Fin cfg0.N).val = iprop(∃ d, owns (c : Thread nD τ) scM fullShare d) from rfl]
    iintro ⟨HS, Ho, ⟨%d0, H0⟩, ⟨%d1, H1⟩, ⟨%d2, H2⟩, ⟨%d3, H3⟩, H4⟩
    iapply (run_first c (grid0.coords t0_0) _ _ _ _ _ _ _ _ _ _ _ _ h0 h1 (iblk m c 0 t0_0) (iblk m c 1 t0_0) Set.univ _)
    isplitl [H0]; · iexact H0
    isplitl [H1]; · iexact H1
    isplitl [HS]; · iexact HS
    iintro ⟨H0, H1, HS⟩
    isplitl [HS]; · iexact HS
    isplitl [Ho]; · iexact Ho
    isplitl [H0]; · iexact H0
    isplitl [H1]; · iexact H1
    isplitl [H2]; · iexact H2
    isplitl [H3]; · iexact H3
    iexact H4
  · have h0 : ¬ atFirst (grid0.coords t) := fun h => hz ((atFirst_iff t).mp h)
    have h1 : atLater (grid0.coords t) := (atLater_iff t).mpr hz
    rw [leaves_in m c 4 t (live4_later t h1), after4]
    rw [PhiS_pos m c t.val hz, show PhiS m c (t.val + 1) = owns (c : Thread nD τ) scM fullShare (kept m c) from rfl]
    iintro ⟨HS, Ho, ⟨%d0, H0⟩, ⟨%d1, H1⟩, ⟨%d2, H2⟩, ⟨%d3, H3⟩, ⟨%d4, H4⟩⟩
    iapply (run_later c (grid0.coords t) _ _ _ _ _ _ _ _ _ _ _ _ h0 h1 (iblk m c 2 t) (iblk m c 3 t) (kept m c) Set.univ _)
    isplitl [H2]; · iexact H2
    isplitl [H3]; · iexact H3
    isplitl [H4]; · iexists _; iexact H4
    isplitl [HS]; · iexact HS
    iintro ⟨H2, H3, H4, HS⟩
    isplitl [HS]; · iexact HS
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
/-
  The launch of the one pipelined call, and the frame.

  The adjacency matrix reaches the kernel through two windows. The launch hands the pipeline each array's buffer whole; the
  matrix's is split into its two half shares, one per window — both windows only read —, the other three arrays go to their
  one window each. The run ends with every window's array at what the write-backs left: the three argument arrays
  untouched, the result array overwritten block by block.
-/
import proofs.«162927_g35794257445170_cont_sun_m_1054_16_alg».proof.Proof.K.Data
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the five windows' arrays are four. -/
theorem arrRefs_eq : Finset.univ.image (Pipeline.arrRef spec0) = [main_arg0, main_arg2, main_arg1, main_v0].toFinset := by decide

theorem share0 (c : Dev nD) : (dats m 0 c).share 0 = fullShare := rfl
theorem share1 (c : Dev nD) : (dats m 0 c).share 1 = fullShare := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

/-- The four buffers one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg2) ↦{fullShare} V m c main_arg2)
          ∗ (((c : Thread nD τ).loc main_arg1) ↦{fullShare} V m c main_arg1) ∗ (((c : Thread nD τ).loc main_v0) ↦{fullShare} V m c main_v0)) := by
  unfold Pipeline.arrBufs
  exact bigSep_eq_bigSepL_of_eq [main_arg0, main_arg2, main_arg1, main_v0] arrRefs_eq (by decide) _

/-- The arrays' buffers, whole at the full share, dealt to the windows: the matrix's halved between its two windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [share0, share1, share2, share3, share4, (arr_whole0 0).set_eq_univ, (arr_whole0 1).set_eq_univ, (arr_whole0 2).set_eq_univ,
    (arr_whole0 4).set_eq_univ]
  iintro ⟨H0, H2, H1, Hv⟩
  ihave H1' := (pointsTo_share (PosShare.mem_left_op_right fullShare)).1 $$ H1
  icases H1' with ⟨H1l, H1r⟩
  isplitl [H0]; · iexact H0
  isplitl [H2]; · iexact H2
  isplitl [H1l]; · iexact H1l
  isplitl [H1r]; · iexact H1r
  iexact Hv

theorem main_eq (c : Dev nD) : main (F := F) c = (.op (.customCall (Pipeline.entry 0) ()) fun _ => .ret ⟨⟩) := by
  rw [main_chain]; rfl

set_option backward.isDefEq.respectTransparency.types false in
/-- From any memory with zero counters every weakly fair execution of @main terminates without a fault, every window's
    array ending at what the proof data's write-backs leave. -/
theorem run_main : θ_run defs (onTc (τ := τ) (main (F := F))) (s₀ m ρ) (fun r => ∀ (c : Dev nD) (w : Fin cfg0.W),
      r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := Rounds.initOf (Pipeline.cells cfgs cellOf_inj) (Pipeline.launchToks cfgs cellOf_inj)) (hu₀ := .rfl)
    (V := V m)
    (hmain := Pipeline.hmain_region (Ix := Unit) (Name := ℕ) (U := UR sig nD τ) (Lvl := ℕ) cfgs 0 defs₀ Variants.none m main main_eq)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [scopedRest0_eq, show (dats m 0 c).Φ 0 = iprop(∃ d, owns (c : Thread nD τ) scM fullShare d) from rfl]
      simp only [scM, owns_whole]
      iintro ⟨-, H⟩; iexact H)
    (hout := fun c => by
      rw [scopedRest0_eq, show (dats m 0 c).Φ (Fin.last cfg0.N) = PhiS m c (Fin.last cfg0.N).val from rfl,
        PhiS_pos m c _ (by rw [Fin.val_last]; have : cfg0.N = 9 := N_0; omega)]
      simp only [scM, owns_whole]
      iintro H; isplitr; · iempintro
      iexists _; iexact H)
    (QY := fun _ _ => True)
    (hY := fun c s' => by
      iintro ⟨-, -, HSI⟩; imodintro
      isplitr; · ipureintro; trivial
      iexact HSI)
    (hQ := fun s h c w => (h c).1 w)

/-- The argument arrays end as they began: each is an input window's array, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c 0).trans (((dats m 0 c).arrAt_in 0 rfl _).trans (A_eq m c 0)),
     (h c 2).trans (((dats m 0 c).arrAt_in 2 rfl _).trans (A_eq m c 2)),
     (h c 1).trans (((dats m 0 c).arrAt_in 1 rfl _).trans (A_eq m c 1))⟩) (run_main m ρ)

end Cert.Kernel.Hand

end
-- ==== Proof.KI.Body.lean ====
/-
  The kernel body, run once per control case.

  The grid has nine points. At point 0 the body forms the product x·W of the two resident input blocks and keeps it in its
  scratch buffer; at every later point s it reads the two half-row blocks of the adjacency matrix (columns [0,2048) and
  [2048,4096) of rows [512(s-1), 512s)), the two halves of the kept product, and stores their quotient block. Each case is
  stated on arbitrary whole staging memrefs: what it is handed, and what it hands back.
-/
import proofs.«162927_g35794257445170_cont_sun_m_1054_16_alg».proof.Proof.Gen.KernelIdeal.Launch
import proofs.«162927_g35794257445170_cont_sun_m_1054_16_alg».proof.Proof.Gen.KernelIdeal.Skeleton
import proofs.«162927_g35794257445170_cont_sun_m_1054_16_alg».proof.Proof.Gen.KernelIdeal.Points
import proofs.«162927_g35794257445170_cont_sun_m_1054_16_alg».proof.Proof.LibWholeStore
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀

variable {F : FTy → Type} [FloatOps F]

local notation "𝕄" => MT nD τ sig Unit (Elt F) ℕ (UR sig nD τ) ℕ

/-! ## The two conditions, over the grid -/

/-- The first conditional's test: the grid coordinate is zero. -/
abbrev atFirst (i : grid0.Coords) : Prop :=
  (Scalar.cmpi .ne (Scalar.extui (Scalar.cmpi .eq (BitVec.ofNat 32 (i 0).val) 0#32)) 0#32) = 1#1
theorem atFirst_iff : ∀ t : Fin cfg0.N, atFirst (grid0.coords t) ↔ t.val = 0 :=
  (by decide +kernel : ∀ t : Fin grid0.N, atFirst (grid0.coords t) ↔ t.val = 0)
/-- The second conditional's test: the grid coordinate is positive. -/
abbrev atLater (i : grid0.Coords) : Prop := k0_cond2 i = 1#1
theorem atLater_iff : ∀ t : Fin cfg0.N, atLater (grid0.coords t) ↔ t.val ≠ 0 :=
  (by decide +kernel : ∀ t : Fin grid0.N, atLater (grid0.coords t) ↔ t.val ≠ 0)

/-- The zero offsets of a rank-2 rectangle. -/
theorem off00 : (![0, 0] : Fin 2 → ℕ) = fun _ => 0 := by
  funext a; fin_cases a <;> rfl

/-! ## The halves of the kept product -/

/-- Rows [0, 2048) of a [4096, 512] array. -/
def loHalf {φ : EltTy} (h : S4096x512.Idx → Elt F φ) : S2048x512.Idx → Elt F φ :=
  View.ld h (Rect.unit (s := S4096x512) ![0, 0] S2048x512.size Facts₀.inb_S4096x512_S2048x512_0_0)
/-- Rows [2048, 4096) of a [4096, 512] array. -/
def hiHalf {φ : EltTy} (h : S4096x512.Idx → Elt F φ) : S2048x512.Idx → Elt F φ :=
  View.ld h (Rect.unit (s := S4096x512) ![2048, 0] S2048x512.size Facts₀.inb_S4096x512_S2048x512_2048_0)

/-! ## The first point -/

set_option maxHeartbeats 1000000 in
/-- At the first point the body reads the two resident blocks `x`, `w` and leaves the scratch buffer at their product
    (the payload `k0_pay1 x w`), whatever it held; the other buffers are not touched. -/
theorem run_first (c : Dev nD) (i : grid0.Coords)
    (arg1 : Memref sig .tc .vmem S4096x512 .f32) (harg1 : arg1.IsWhole) (arg2 : Memref sig .tc .vmem S512x512 .f32) (harg2 : arg2.IsWhole)
    (arg3 : Memref sig .tc .vmem S512x2048 .f32) (harg3 : arg3.IsWhole) (arg4 : Memref sig .tc .vmem S512x2048 .f32) (harg4 : arg4.IsWhole)
    (arg5 : Memref sig .tc .vmem S512x512 .f32) (harg5 : arg5.IsWhole) (arg6 : Memref sig .tc .vmem S4096x512 .bf16) (harg6 : arg6.IsWhole)
    (hc0 : atFirst i) (hc1 : ¬ atLater i)
    (x : Vec F S4096x512 .f32) (w : Vec F S512x512 .f32) (E : Set ℕ) (K : PUnit → sProp 𝕄) :
    iprop(owns (c : Thread nD τ) arg1 fullShare x ∗ owns (c : Thread nD τ) arg2 fullShare w
        ∗ (∃ d, owns (c : Thread nD τ) arg6 fullShare d)
        ∗ (iprop(owns (c : Thread nD τ) arg1 fullShare x ∗ owns (c : Thread nD τ) arg2 fullShare w
            ∗ owns (c : Thread nD τ) arg6 fullShare (k0_pay1 x w)) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  unfold owns
  iintro ⟨⟨%f1, %hf1, H1⟩, ⟨%f2, %hf2, H2⟩, ⟨%d6, %f6, -, H6⟩, Hk⟩
  obtain rfl := harg1.eq_unread hf1; obtain rfl := harg2.eq_unread hf2
  sl_exec (disch := first | exact hc0 | exact hc1)
  sl_step
  iapply Hk
  isplitl [H1]
  · iexists _; isplitr; · ipureintro; exact hf1
    iexact H1
  isplitl [H2]
  · iexists _; isplitr; · ipureintro; exact hf2
    iexact H2
  iexists _; isplitr
  swap; · iexact H6
  ipureintro
  rw [Cert.LibWholeStore.read_after_whole_store _ _ off00, Cert.LibWholeStore.load_whole _ harg1 off00,
    Cert.LibWholeStore.load_whole _ harg2 off00]

/-! ## A later point -/

set_option maxHeartbeats 1000000 in
/-- At a later point the body reads the two adjacency half-blocks `a1`, `a2` and the kept product `h`, and leaves the
    output buffer at the quotient block (the payload `k0_pay2` of the half-blocks and the two halves of `h`), whatever it
    held; the inputs and the scratch come back as they were. -/
theorem run_later (c : Dev nD) (i : grid0.Coords)
    (arg1 : Memref sig .tc .vmem S4096x512 .f32) (harg1 : arg1.IsWhole) (arg2 : Memref sig .tc .vmem S512x512 .f32) (harg2 : arg2.IsWhole)
    (arg3 : Memref sig .tc .vmem S512x2048 .f32) (harg3 : arg3.IsWhole) (arg4 : Memref sig .tc .vmem S512x2048 .f32) (harg4 : arg4.IsWhole)
    (arg5 : Memref sig .tc .vmem S512x512 .f32) (harg5 : arg5.IsWhole) (arg6 : Memref sig .tc .vmem S4096x512 .bf16) (harg6 : arg6.IsWhole)
    (hc0 : ¬ atFirst i) (hc1 : atLater i)
    (a1 a2 : Vec F S512x2048 .f32) (h : Vec F S4096x512 .bf16) (E : Set ℕ) (K : PUnit → sProp 𝕄) :
    iprop(owns (c : Thread nD τ) arg3 fullShare a1 ∗ owns (c : Thread nD τ) arg4 fullShare a2
        ∗ (∃ d, owns (c : Thread nD τ) arg5 fullShare d) ∗ owns (c : Thread nD τ) arg6 fullShare h
        ∗ (iprop(owns (c : Thread nD τ) arg3 fullShare a1 ∗ owns (c : Thread nD τ) arg4 fullShare a2
            ∗ owns (c : Thread nD τ) arg5 fullShare (k0_pay2 a1 a2 (loHalf h) (hiHalf h))
            ∗ owns (c : Thread nD τ) arg6 fullShare h) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  unfold owns
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [Cert.LibWholeStore.read_after_whole_store _ _ off00, Cert.LibWholeStore.load_whole _ harg3 off00,
      Cert.LibWholeStore.load_whole _ harg4 off00, View.readAt_eq_ld, View.readAt_eq_ld, harg6.read_unread]
    rfl
  iexists _; isplitr; · ipureintro; exact hf6
  iexact H6

end Cert.KernelIdeal.Hand

end
-- ==== Proof.KI.Data.lean ====
/-
  The proof data of the one pipelined call, and its body obligation.

  Every input window's staging buffer holds, at every point, the block of its array the index map selects there (the two
  resident blocks never move; the two adjacency half-blocks move to row block s-1 at point s, and stay at row block 0 over
  points 0 and 1). The scratch buffer holds anything before the first point and the product of the two resident blocks
  ever after. The output's buffer is left alone at the first point, which does not write it back, and holds the
  quotient block at every later point.
-/
import proofs.«162927_g35794257445170_cont_sun_m_1054_16_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀

variable {F : FTy → Type} [FloatOps F]

local notation "𝕄" => MT nD τ sig Unit (Elt F) ℕ (UR sig nD τ) ℕ

variable (m : (ℓ : Loc nD τ sig) → Buf (Elt F) ℓ)

/-- The TensorCore buffers as the region finds them: @main runs nothing before it. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The product of the two resident blocks, as the first point leaves it in the scratch buffer. -/
def kept (c : Dev nD) : Vec F S4096x512 .bf16 := k0_pay1 (iblk m c 0 t0_0) (iblk m c 1 t0_0)

/-- The quotient block a later point `t` stores: from the adjacency half-blocks at `t` and the two halves of the product. -/
def outAt (c : Dev nD) (t : Fin cfg0.N) : Vec F S512x512 .f32 :=
  k0_pay2 (iblk m c 2 t) (iblk m c 3 t) (loHalf (kept m c)) (hiHalf (kept m c))

/-- The scratch buffer as a memref. -/
abbrev scM : Memref sig .tc .vmem S4096x512 .bf16 := Memref.whole cc0_scratch0

/-- The region invariant before position `n`: the scratch at anything before the first point, at the product afterwards. -/
def PhiS (c : Dev nD) : ℕ → sProp 𝕄
  | 0 => iprop(∃ d, owns (c : Thread nD τ) scM fullShare d)
  | _ + 1 => owns (c : Thread nD τ) scM fullShare (kept m c)

theorem PhiS_pos (c : Dev nD) (n : ℕ) (hn : n ≠ 0) : PhiS m c n = owns (c : Thread nD τ) scM fullShare (kept m c) := by
  cases n with
  | zero => exact absurd rfl hn
  | succ n => rfl

/-- The proof data: the arrays as the region finds them; each input's buffer at its block; the output's at the quotient
    block; the adjacency matrix, read through two windows, held half and half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-! ## What the body finds in the inputs' buffers -/

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## Where the output window is idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- At the first point the body stores nothing into the output's buffer, -/
theorem idle4_first : ∀ t : Fin cfg0.N, ¬ atLater (grid0.coords t) → cfg0.idle 4 (grid0.coords t) = true := by decide +kernel
/-- and the pipeline does not write it back there (the next point has the same block index); -/
theorem noFlush4_first : ∀ t : Fin cfg0.N, ¬ atLater (grid0.coords t) → (cfg0.win 4).flush t = false := by decide +kernel
/-- at every later point the body stores the whole block. -/
theorem live4_later : ∀ t : Fin cfg0.N, atLater (grid0.coords t) → cfg0.idle 4 (grid0.coords t) = false := by decide +kernel

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves_in m c 0 t (live0 t), leaves_in m c 1 t (live1 t), leaves_in m c 2 t (live2 t), leaves_in m c 3 t (live3 t),
    after0, after1, after2, after3]
  by_cases hz : t.val = 0
  · have h0 : atFirst (grid0.coords t) := (atFirst_iff t).mpr hz
    have h1 : ¬ atLater (grid0.coords t) := fun h => (atLater_iff t).mp h hz
    rw [Dat.leavesExact_idle (dats m 0 c) 4 t (idle4_first t h1) (noFlush4_first t h1)]
    obtain rfl : t = t0_0 := Fin.ext hz
    rw [show PhiS m c ((t0_0 : Fin cfg0.N).val + 1) = owns (c : Thread nD τ) scM fullShare (kept m c) from rfl,
      show PhiS m c (t0_0 : Fin cfg0.N).val = iprop(∃ d, owns (c : Thread nD τ) scM fullShare d) from rfl]
    iintro ⟨HS, Ho, ⟨%d0, H0⟩, ⟨%d1, H1⟩, ⟨%d2, H2⟩, ⟨%d3, H3⟩, H4⟩
    iapply (run_first c (grid0.coords t0_0) _ _ _ _ _ _ _ _ _ _ _ _ h0 h1 (iblk m c 0 t0_0) (iblk m c 1 t0_0) Set.univ _)
    isplitl [H0]; · iexact H0
    isplitl [H1]; · iexact H1
    isplitl [HS]; · iexact HS
    iintro ⟨H0, H1, HS⟩
    isplitl [HS]; · iexact HS
    isplitl [Ho]; · iexact Ho
    isplitl [H0]; · iexact H0
    isplitl [H1]; · iexact H1
    isplitl [H2]; · iexact H2
    isplitl [H3]; · iexact H3
    iexact H4
  · have h0 : ¬ atFirst (grid0.coords t) := fun h => hz ((atFirst_iff t).mp h)
    have h1 : atLater (grid0.coords t) := (atLater_iff t).mpr hz
    rw [leaves_in m c 4 t (live4_later t h1), after4]
    rw [PhiS_pos m c t.val hz, show PhiS m c (t.val + 1) = owns (c : Thread nD τ) scM fullShare (kept m c) from rfl]
    iintro ⟨HS, Ho, ⟨%d0, H0⟩, ⟨%d1, H1⟩, ⟨%d2, H2⟩, ⟨%d3, H3⟩, ⟨%d4, H4⟩⟩
    iapply (run_later c (grid0.coords t) _ _ _ _ _ _ _ _ _ _ _ _ h0 h1 (iblk m c 2 t) (iblk m c 3 t) (kept m c) Set.univ _)
    isplitl [H2]; · iexact H2
    isplitl [H3]; · iexact H3
    isplitl [H4]; · iexists _; iexact H4
    isplitl [HS]; · iexact HS
    iintro ⟨H2, H3, H4, HS⟩
    isplitl [HS]; · iexact HS
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The launch of the one pipelined call, and the frame.

  The adjacency matrix reaches the kernel through two windows. The launch hands the pipeline each array's buffer whole; the
  matrix's is split into its two half shares, one per window — both windows only read —, the other three arrays go to their
  one window each. The run ends with every window's array at what the write-backs left: the three argument arrays
  untouched, the result array overwritten block by block.
-/
import proofs.«162927_g35794257445170_cont_sun_m_1054_16_alg».proof.Proof.KI.Data
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the five windows' arrays are four. -/
theorem arrRefs_eq : Finset.univ.image (Pipeline.arrRef spec0) = [main_arg0, main_arg2, main_arg1, main_v0].toFinset := by decide

theorem share0 (c : Dev nD) : (dats m 0 c).share 0 = fullShare := rfl
theorem share1 (c : Dev nD) : (dats m 0 c).share 1 = fullShare := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

/-- The four buffers one by one. -/
theorem arrBufs_eq (c : Dev nD) :
    (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg2) ↦{fullShare} V m c main_arg2)
          ∗ (((c : Thread nD τ).loc main_arg1) ↦{fullShare} V m c main_arg1) ∗ (((c : Thread nD τ).loc main_v0) ↦{fullShare} V m c main_v0)) := by
  unfold Pipeline.arrBufs
  exact bigSep_eq_bigSepL_of_eq [main_arg0, main_arg2, main_arg1, main_v0] arrRefs_eq (by decide) _

/-- The arrays' buffers, whole at the full share, dealt to the windows: the matrix's halved between its two windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  rw [share0, share1, share2, share3, share4, (arr_whole0 0).set_eq_univ, (arr_whole0 1).set_eq_univ, (arr_whole0 2).set_eq_univ,
    (arr_whole0 4).set_eq_univ]
  iintro ⟨H0, H2, H1, Hv⟩
  ihave H1' := (pointsTo_share (PosShare.mem_left_op_right fullShare)).1 $$ H1
  icases H1' with ⟨H1l, H1r⟩
  isplitl [H0]; · iexact H0
  isplitl [H2]; · iexact H2
  isplitl [H1l]; · iexact H1l
  isplitl [H1r]; · iexact H1r
  iexact Hv

theorem main_eq (c : Dev nD) : main (F := F) c = (.op (.customCall (Pipeline.entry 0) ()) fun _ => .ret ⟨⟩) := by
  rw [main_chain]; rfl

set_option backward.isDefEq.respectTransparency.types false in
/-- From any memory with zero counters every weakly fair execution of @main terminates without a fault, every window's
    array ending at what the proof data's write-backs leave. -/
theorem run_main : θ_run defs (onTc (τ := τ) (main (F := F))) (s₀ m ρ) (fun r => ∀ (c : Dev nD) (w : Fin cfg0.W),
      r.2.mem (((cfg0).spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := Rounds.initOf (Pipeline.cells cfgs cellOf_inj) (Pipeline.launchToks cfgs cellOf_inj)) (hu₀ := .rfl)
    (V := V m)
    (hmain := Pipeline.hmain_region (Ix := Unit) (Name := ℕ) (U := UR sig nD τ) (Lvl := ℕ) cfgs 0 defs₀ Variants.none m main main_eq)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      rw [scopedRest0_eq, show (dats m 0 c).Φ 0 = iprop(∃ d, owns (c : Thread nD τ) scM fullShare d) from rfl]
      simp only [scM, owns_whole]
      iintro ⟨-, H⟩; iexact H)
    (hout := fun c => by
      rw [scopedRest0_eq, show (dats m 0 c).Φ (Fin.last cfg0.N) = PhiS m c (Fin.last cfg0.N).val from rfl,
        PhiS_pos m c _ (by rw [Fin.val_last]; have : cfg0.N = 9 := N_0; omega)]
      simp only [scM, owns_whole]
      iintro H; isplitr; · iempintro
      iexists _; iexact H)
    (QY := fun _ _ => True)
    (hY := fun c s' => by
      iintro ⟨-, -, HSI⟩; imodintro
      isplitr; · ipureintro; trivial
      iexact HSI)
    (hQ := fun s h c w => (h c).1 w)

/-- The argument arrays end as they began: each is an input window's array, never written back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c 0).trans (((dats m 0 c).arrAt_in 0 rfl _).trans (A_eq m c 0)),
     (h c 2).trans (((dats m 0 c).arrAt_in 2 rfl _).trans (A_eq m c 2)),
     (h c 1).trans (((dats m 0 c).arrAt_in 1 rfl _).trans (A_eq m c 1))⟩) (run_main m ρ)

end Cert.KernelIdeal.Hand

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.LibRowReduceProducts.lean ====
/-
  Reductions along the rows of a matrix, sums down its columns, and two orientations of the matrix product, each read
  at an index at the ideal (extended real) values and generic in the extents.

  * rowMax_apply   — a reduction by maximum over the SECOND axis of an [a, b] array started from minus infinity is, at
                     row r, the supremum over the columns k of entry (r, k);
  * rowSum_apply   — a reduction by addition over the second axis from zero is, at row r, the sum over k of entry (r, k);
  * colSum_apply   — a reduction by addition over the first axis from zero is, at column c, the sum over k of entry (k, c);
  * matmulNT       — an [M, K] array against an [N, K] array contracted over their second axes into a zero accumulator:
                     entry (e, o) is the sum over r of x (e, r) * y (o, r) (left operand times the transpose of the right);
  * matmulNN       — an [M, K] array against a [K, N] array, the plain product: entry (e, o) is the sum over r of
                     x (e, r) * y (r, o).
-/
import Idealize.ShloMosaic.PureOps.Ideal.Laws
import Idealize.ShloMosaic.Lib.Pipeline.Value
import Idealize.ShloMosaic.Lib.ValueIdx
import proofs.«162927_g35794257445170_cont_sun_m_1054_16_alg».proof.Proof.LibPayOps

noncomputable section

open scoped BigOperators

namespace Cert.LibRowReduceProducts

open Idealize.ShloMosaic Idealize.ShloMosaic.ValueIdx

/-! ## Reductions -/

/-- The maximum along the rows of an [a, b] array (a reduction over its second axis from minus infinity), at row r. -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = FKind.maximumf.neutral .f32 hφ) (r : Fin a) :
    multiReduction .maximumf [1] ⟨1, ![a]⟩ src 0xFF800000#32 h hφ hacc (ix1 r)
      = Finset.univ.sup fun k : Fin b => src (ix2 r k) := by
  refine (Ideal.multiReduction_maximumf_single src 0xFF800000#32 h hφ hacc (ix1 r)).trans ?_
  refine (congrArg (fun z => (Finset.univ : Finset (Fin ((⟨2, ![a, b]⟩ : Shape).size 1))).fold max z
    (src ∘ h.lift (ix1 r))) Cert.LibPayOps.ofBits_f32_neg_inf).trans ?_
  refine (Cert.LibPayOps.fold_max_bot_eq_sup _ _).trans ?_
  exact congrArg (Finset.univ.sup) (funext fun k => congrArg src (funext fun d => Fin.ext (by
    match d with
    | ⟨0, _⟩ => rfl
    | ⟨1, _⟩ => rfl)))

/-- The sum along the rows of an [a, b] array (a reduction by addition over its second axis from zero), at row r. -/
theorem rowSum_apply {a b : ℕ} (src : FVec Ideal ⟨2, ![a, b]⟩ .f32)
    (h : Shape.Reduces ⟨2, ![a, b]⟩ [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun d => Fin.ext (by
    match d with
    | ⟨0, _⟩ => rfl
    | ⟨1, _⟩ => rfl))

/-- The sum down the columns of an [a, b] array (a reduction by addition over its first axis from zero), at column c. -/
theorem colSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src 0x00000000#32 h hφ hacc (ix1 c)).trans ?_
  exact Finset.sum_congr rfl fun k _ => congrArg src (funext fun d => Fin.ext (by
    match d with
    | ⟨0, _⟩ => rfl
    | ⟨1, _⟩ => rfl))

/-! ## The product with the transpose of the right operand -/

section NT

variable {K M N : ℕ}

/-- The dimension numbers contracting the second axis of both operands, over any evidence of well-formedness. -/
abbrev dimsNT (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ := ⟨[1], [1], [0], [0], [], [], wf⟩

variable (wf : DotDims.WF ⟨2, ![M, K]⟩ ⟨2, ![N, K]⟩ ⟨2, ![M, N]⟩ [1] [1] [0] [0] [] [])

/-- The left operand's first coordinate is the output's row coordinate, -/
theorem nt_lhs_free (j : (⟨2, ![M, N]⟩ : Shape).Idx) (q : (dimsNT wf).contr.Idx) :
    ((dimsNT wf).lhsIdx j q 0).val = (j 0).val := by
  unfold DotDims.lhsIdx
  rw [dif_neg (show ¬(0 : Fin 2) ∈ (dimsNT wf).lhsBatch from List.not_mem_nil),
    dif_pos (show (0 : Fin 2) ∈ (dimsNT wf).lhsNonContracting from List.mem_singleton.mpr rfl)]
  rfl

/-- and the right operand's first coordinate is the output's column coordinate. -/
theorem nt_rhs_free (j : (⟨2, ![M, N]⟩ : Shape).Idx) (q : (dimsNT wf).contr.Idx) :
    ((dimsNT wf).rhsIdx j q 0).val = (j 1).val := by
  unfold DotDims.rhsIdx
  rw [dif_neg (show ¬(0 : Fin 2) ∈ (dimsNT wf).rhsBatch from List.not_mem_nil),
    dif_pos (show (0 : Fin 2) ∈ (dimsNT wf).rhsNonContracting from List.mem_singleton.mpr rfl)]
  rfl

/-- Entry (e, o) of the product into a zero accumulator: row e of the left operand against row o of the right one. -/
theorem dimsNT_matmul_zero_apply {φ₁ φ₂ : FTy} (prec : Option ContractPrecision)
    (x : FVec Ideal ⟨2, ![M, K]⟩ φ₁) (y : FVec Ideal ⟨2, ![N, K]⟩ φ₂) (e : Fin M) (o : Fin N) :
    FloatOps.matmul (dimsNT wf) prec x y (constant ⟨2, ![M, N]⟩ .f32 0x00000000#32) (ix2 e o)
      = ∑ r : Fin K, x (ix2 e r) * y (ix2 o r) := by
  rw [Ideal.matmul_constant_zero_apply,
    ← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 e o)
      ((contrEquiv1 (dimsNT wf) K rfl rfl).symm k) = ix2 e k := funext fun a => Fin.ext (by
    match a with
    | ⟨0, _⟩ => exact nt_lhs_free wf _ _
    | ⟨1, _⟩ => exact ((dimsNT wf).lhsIdx_val_of_single rfl _ _).trans hk)
  have er : (dimsNT wf).rhsIdx (ix2 e o)
      ((contrEquiv1 (dimsNT wf) K rfl rfl).symm k) = ix2 o k := funext fun a => Fin.ext (by
    match a with
    | ⟨0, _⟩ => exact nt_rhs_free wf _ _
    | ⟨1, _⟩ => exact ((dimsNT wf).rhsIdx_val_of_single rfl _ _).trans hk)
  rw [el, er]

/-- The same for any dimension numbers whose six lists are those. -/
theorem matmulNT {φ₁ φ₂ : FTy} (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![M, K]⟩ φ₁) (y : FVec Ideal ⟨2, ![N, K]⟩ φ₂)
    (e : Fin M) (o : Fin N) :
    FloatOps.matmul D prec x y (constant ⟨2, ![M, N]⟩ .f32 0x00000000#32) (ix2 e o)
      = ∑ r : Fin K, x (ix2 e r) * y (ix2 o r) := by
  obtain ⟨lc, rc, ln, rn, lb, rb, wf⟩ := D
  simp only at hlc hrc hln hrn hlb hrb
  subst hlc hrc hln hrn hlb hrb
  exact dimsNT_matmul_zero_apply wf prec x y e o

end NT

/-! ## The plain product -/

section NN

variable {K M N : ℕ}

/-- The dimension numbers contracting the left operand's second axis with the right operand's first. -/
abbrev dimsNN (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

/-- The left operand's first coordinate is the output's row coordinate, -/
theorem nn_lhs_free (j : (⟨2, ![M, N]⟩ : Shape).Idx) (q : (dimsNN wf).contr.Idx) :
    ((dimsNN wf).lhsIdx j q 0).val = (j 0).val := by
  unfold DotDims.lhsIdx
  rw [dif_neg (show ¬(0 : Fin 2) ∈ (dimsNN wf).lhsBatch from List.not_mem_nil),
    dif_pos (show (0 : Fin 2) ∈ (dimsNN wf).lhsNonContracting from List.mem_singleton.mpr rfl)]
  rfl

/-- and the right operand's second coordinate is the output's column coordinate. -/
theorem nn_rhs_free (j : (⟨2, ![M, N]⟩ : Shape).Idx) (q : (dimsNN wf).contr.Idx) :
    ((dimsNN wf).rhsIdx j q 1).val = (j 1).val := by
  unfold DotDims.rhsIdx
  rw [dif_neg (show ¬(1 : Fin 2) ∈ (dimsNN wf).rhsBatch from List.not_mem_nil),
    dif_pos (show (1 : Fin 2) ∈ (dimsNN wf).rhsNonContracting from List.mem_singleton.mpr rfl)]
  rfl

/-- Entry (e, o) of the product into a zero accumulator: row e of the left operand against column o of the right one. -/
theorem dimsNN_matmul_zero_apply {φ₁ φ₂ : FTy} (prec : Option ContractPrecision)
    (x : FVec Ideal ⟨2, ![M, K]⟩ φ₁) (y : FVec Ideal ⟨2, ![K, N]⟩ φ₂) (e : Fin M) (o : Fin N) :
    FloatOps.matmul (dimsNN wf) prec x y (constant ⟨2, ![M, N]⟩ .f32 0x00000000#32) (ix2 e o)
      = ∑ r : Fin K, x (ix2 e r) * y (ix2 r o) := by
  rw [Ideal.matmul_constant_zero_apply,
    ← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 e o)
      ((contrEquiv1 (dimsNN wf) K rfl rfl).symm k) = ix2 e k := funext fun a => Fin.ext (by
    match a with
    | ⟨0, _⟩ => exact nn_lhs_free wf _ _
    | ⟨1, _⟩ => exact ((dimsNN wf).lhsIdx_val_of_single rfl _ _).trans hk)
  have er : (dimsNN wf).rhsIdx (ix2 e o)
      ((contrEquiv1 (dimsNN wf) K rfl rfl).symm k) = ix2 k o := funext fun a => Fin.ext (by
    match a with
    | ⟨0, _⟩ => exact ((dimsNN wf).rhsIdx_val_of_single rfl _ _).trans hk
    | ⟨1, _⟩ => exact nn_rhs_free wf _ _)
  rw [el, er]

/-- The same for any dimension numbers whose six lists are those. -/
theorem matmulNN {φ₁ φ₂ : FTy} (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![M, K]⟩ φ₁) (y : FVec Ideal ⟨2, ![K, N]⟩ φ₂)
    (e : Fin M) (o : Fin N) :
    FloatOps.matmul D prec x y (constant ⟨2, ![M, N]⟩ .f32 0x00000000#32) (ix2 e o)
      = ∑ r : Fin K, x (ix2 e r) * y (ix2 r o) := by
  obtain ⟨lc, rc, ln, rn, lb, rb, wf⟩ := D
  simp only at hlc hrc hln hrn hlb hrb
  subst hlc hrc hln hrn hlb hrb
  exact dimsNN_matmul_zero_apply wf prec x y e o

end NN

end Cert.LibRowReduceProducts

end
-- ==== Proof.LibKeepdimsColumn.lean ====
/-
  The keep-dims column, generic in the extents and the element type:

  * shapeCast_a_a1_apply     — an [a] array cast to [a, 1] reads, at (r, u), the operand at r, whatever the unit coordinate u;
  * broadcastTo_a1_ab_apply  — an [a, 1] array broadcast to [a, b] reads, at (r, c), the operand's one column at row r.
-/
import Idealize.ShloMosaic.Lib.Pipeline.Value
import Idealize.ShloMosaic.Lib.ValueIdx

namespace Cert.LibKeepdimsColumn

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` array broadcast to `[a, b]` reads, at `(r, c)`, the operand at `(r, 0)`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Cert.LibKeepdimsColumn
-- ==== Proof.Spec.lean ====
/-
  The specification: mean aggregation of projected features over a weighted adjacency.

  For features x : [4096, 512], adjacency a : [4096, 4096] and weights w : [512, 512], on the extended reals,

      out (i, j) = ( Σ_k a (i, k) · ( Σ_l x (k, l) · w (l, j) ) ) / ( Σ_k a (i, k) ).

  The only law between the two programs is that a sum over the 4096 columns is the sum over the first 2048 plus the sum
  over the last 2048: the kernel reads each row of the adjacency as two half rows. It holds in any commutative monoid
  — no finiteness of the entries is used anywhere.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![4096, 512]⟩
abbrev SA : Shape := ⟨2, ![4096, 4096]⟩
abbrev SW : Shape := ⟨2, ![512, 512]⟩

/-- The projected features: row k of x against column j of w. -/
def proj (x : SX.Idx → EReal) (w : SW.Idx → EReal) (k : Fin 4096) (j : Fin 512) : EReal :=
  ∑ l : Fin 512, x (ix2 k l) * w (ix2 l j)

/-- The weighted degree of row i. -/
def deg (a : SA.Idx → EReal) (i : Fin 4096) : EReal := ∑ k : Fin 4096, a (ix2 i k)

/-- The aggregated features. -/
def aggregate (x : SX.Idx → EReal) (a : SA.Idx → EReal) (w : SW.Idx → EReal) : SX.Idx → EReal := fun i =>
  Ideal.div (∑ k : Fin 4096, a (ix2 (i 0) k) * proj x w k (i 1)) (deg a (i 0))

/-- Column k of the first half, as a column of the whole row. -/
abbrev lo (k : Fin 2048) : Fin 4096 := ⟨k.val, by omega⟩
/-- Column k of the second half, as a column of the whole row. -/
abbrev hi (k : Fin 2048) : Fin 4096 := ⟨2048 + k.val, by omega⟩

/-- A sum over the 4096 columns, in halves. -/
theorem sum_halves (f : Fin 4096 → EReal) :
    ∑ k : Fin 4096, f k = (∑ k : Fin 2048, f (lo k)) + ∑ k : Fin 2048, f (hi k) :=
  Fin.sum_univ_add (M := EReal) (a := 2048) (b := 2048) f

/-- The aggregate with each row of the adjacency read as two half rows. -/
theorem aggregate_halves (x : SX.Idx → EReal) (a : SA.Idx → EReal) (w : SW.Idx → EReal) (i : Fin 4096) (j : Fin 512) :
    aggregate x a w (ix2 i j)
      = Ideal.div ((∑ k : Fin 2048, a (ix2 i (lo k)) * proj x w (lo k) j) + ∑ k : Fin 2048, a (ix2 i (hi k)) * proj x w (hi k) j)
          ((∑ k : Fin 2048, a (ix2 i (lo k))) + ∑ k : Fin 2048, a (ix2 i (hi k))) := by
  unfold aggregate deg
  rw [sum_halves (fun k => a (ix2 i k) * proj x w k j), sum_halves (fun k => a (ix2 i k))]

end Cert.Spec

end
-- ==== Proof.Payload.lean ====
/-
  The two stored values, read at an index on the extended reals.

  The first point's store is the product of its two blocks: entry (k, j) is Σ_l x (k, l) · w (l, j). A later point's store
  is, at (r, j), the quotient of  Σ_k a1 (r, k) · h (k, j) + Σ_k a2 (r, k) · h (2048 + k, j)  by  Σ_k a1 (r, k) + Σ_k a2 (r, k),
  where a1, a2 are the two half rows of the adjacency and h the kept product. When the half rows are those of row
  512·q + r of an adjacency A and h is the projected features, that is the aggregate at (512·q + r, j).
-/
import proofs.«162927_g35794257445170_cont_sun_m_1054_16_alg».proof.Proof.KI.Body
import proofs.«162927_g35794257445170_cont_sun_m_1054_16_alg».proof.Proof.LibRowReduceProducts
import proofs.«162927_g35794257445170_cont_sun_m_1054_16_alg».proof.Proof.LibKeepdimsColumn
import proofs.«162927_g35794257445170_cont_sun_m_1054_16_alg».proof.Proof.Spec

set_option maxRecDepth 16384

noncomputable section

open scoped BigOperators

namespace Cert.KernelIdeal.ValueAt

open Cert.KernelIdeal Cert.KernelIdeal.Gen Cert.KernelIdeal.Hand
open Idealize.ShloMosaic Idealize.ShloMosaic.TcCoe Idealize.ShloMosaic.ValueIdx Idealize.SL.Sem
open Cert.Spec

/-- Rows [0, 2048): row k of the half is row k of the array. -/
theorem loHalf_apply (h : S4096x512.Idx → Elt Ideal .bf16) (k : Fin 2048) (j : Fin 512) :
    loHalf (F := Ideal) h (ix2 k j) = h (ix2 (lo k) j) := by
  unfold loHalf
  show h _ = h _
  refine congrArg h (funext fun a => Fin.ext ?_)
  match a with
  | ⟨0, _⟩ => show 0 + 1 * k.val = k.val; omega
  | ⟨1, _⟩ => show 0 + 1 * j.val = j.val; omega

/-- Rows [2048, 4096): row k of the half is row 2048 + k of the array. -/
theorem hiHalf_apply (h : S4096x512.Idx → Elt Ideal .bf16) (k : Fin 2048) (j : Fin 512) :
    hiHalf (F := Ideal) h (ix2 k j) = h (ix2 (hi k) j) := by
  unfold hiHalf
  show h _ = h _
  refine congrArg h (funext fun a => Fin.ext ?_)
  match a with
  | ⟨0, _⟩ => show 2048 + 1 * k.val = 2048 + k.val; omega
  | ⟨1, _⟩ => show 0 + 1 * j.val = j.val; omega

/-- The first point's stored value at (k, j): the product's entry (the change of format is the identity on the extended reals). -/
theorem product_apply (x : Vec Ideal S4096x512 .f32) (w : Vec Ideal S512x512 .f32) (k : Fin 4096) (j : Fin 512) :
    k0_pay1 (F := Ideal) x w (ix2 k j) = ∑ l : Fin 512, x (ix2 k l) * w (ix2 l j) := by
  unfold k0_pay1
  refine (congrFun (shapeCast_self _ _) (ix2 k j)).trans ?_
  exact Cert.LibRowReduceProducts.matmulNN (φ₁ := .f32) (φ₂ := .f32) _ rfl rfl rfl rfl rfl rfl none x w k j

/-- A later point's stored value at (r, j). -/
theorem quotient_apply (a1 a2 : Vec Ideal S512x2048 .f32) (h1 h2 : Vec Ideal S2048x512 .bf16) (r : Fin 512) (j : Fin 512) :
    k0_pay2 (F := Ideal) a1 a2 h1 h2 (ix2 r j)
      = Ideal.div ((∑ k : Fin 2048, a1 (ix2 r k) * h1 (ix2 k j)) + ∑ k : Fin 2048, a2 (ix2 r k) * h2 (ix2 k j))
          ((∑ k : Fin 2048, a1 (ix2 r k)) + ∑ k : Fin 2048, a2 (ix2 r k)) := by
  unfold k0_pay2
  refine (divf_apply _ _ _).trans ?_
  refine congrArg₂ Ideal.div ?_ ?_
  · refine (addf_apply _ _ _).trans ?_
    refine congrArg₂ (· + ·) ?_ ?_
    · exact Cert.LibRowReduceProducts.matmulNN (φ₁ := .bf16) (φ₂ := .bf16) _ rfl rfl rfl rfl rfl rfl none _ h1 r j
    · exact Cert.LibRowReduceProducts.matmulNN (φ₁ := .bf16) (φ₂ := .bf16) _ rfl rfl rfl rfl rfl rfl none _ h2 r j
  · refine (Cert.LibKeepdimsColumn.broadcastTo_a1_ab_apply _ _ r j).trans ?_
    refine (addf_apply _ _ _).trans ?_
    refine congrArg₂ (· + ·) ?_ ?_
    · refine (Cert.LibKeepdimsColumn.shapeCast_a_a1_apply _ _ r 0).trans ?_
      exact Cert.LibRowReduceProducts.rowSum_apply a1 _ _ _ r
    · refine (Cert.LibKeepdimsColumn.shapeCast_a_a1_apply _ _ r 0).trans ?_
      exact Cert.LibRowReduceProducts.rowSum_apply a2 _ _ _ r

/-- A later point's stored value is the aggregate's block: with the half rows those of row 512·q + r of `A` and the kept
    product the projected features of `X` and `W`. -/
theorem quotient_eq_aggregate (X : SX.Idx → EReal) (A : SA.Idx → EReal) (W : SW.Idx → EReal)
    (a1 a2 : Vec Ideal S512x2048 .f32) (h : Vec Ideal S4096x512 .bf16) (i : Fin 4096) (r : Fin 512)
    (ha1 : ∀ k : Fin 2048, a1 (ix2 r k) = A (ix2 i (lo k)))
    (ha2 : ∀ k : Fin 2048, a2 (ix2 r k) = A (ix2 i (hi k)))
    (hh : ∀ (k : Fin 4096) (j : Fin 512), h (ix2 k j) = proj X W k j) (j : Fin 512) :
    k0_pay2 (F := Ideal) a1 a2 (loHalf h) (hiHalf h) (ix2 r j) = aggregate X A W (ix2 i j) := by
  rw [quotient_apply, aggregate_halves]
  simp only [loHalf_apply, hiHalf_apply, ha1, ha2, hh]

end Cert.KernelIdeal.ValueAt

end
-- ==== Proof.Blocks.lean ====
/-
  From the blocks to the array: what the result array holds after the run, on the extended reals.

  The output's block index at point t is (max (t - 1) 0, 0): points 1 to 8 write row blocks 0 to 7 back, and these tile the
  4096 rows. The two adjacency windows sit at the same row block, at column blocks 0 and 1 (columns [0, 2048) and
  [2048, 4096)); the two resident windows are their whole arrays. So what point t writes back is block t of the aggregate
  of the three argument arrays, and the array ends holding the aggregate.
-/
import proofs.«162927_g35794257445170_cont_sun_m_1054_16_alg».proof.Proof.KI.Run
import proofs.«162927_g35794257445170_cont_sun_m_1054_16_alg».proof.Proof.Payload
import Idealize.ShloMosaic.Lib.Pipeline.Value

set_option maxRecDepth 16384

noncomputable section

open scoped BigOperators

namespace Cert.KernelIdeal.ValueAt

open Cert.KernelIdeal Cert.KernelIdeal.Gen Cert.KernelIdeal.Hand
open Idealize.ShloMosaic Idealize.ShloMosaic.TcCoe Idealize.ShloMosaic.ValueIdx Idealize.SL.Sem
open Cert.Spec

open Idealize.ShloMosaic.Pipeline (Dat Cfg Window)

variable (m : (ℓ : Loc nD τ sig) → Buf (Elt Ideal) ℓ) (ρ : Dev nD → PrngReg)

/-- The aggregate of the three argument arrays as the region finds them. -/
def G (c : Dev nD) : S4096x512.Idx → Elt Ideal .f32 :=
  aggregate (m ((c : Thread nD τ).loc main_arg0)) (m ((c : Thread nD τ).loc main_arg1)) (m ((c : Thread nD τ).loc main_arg2))

/-- The printed index maps, decided over the grid. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_3.index t (0 : Fin 2) = win0_4.index t (0 : Fin 2) ∧ win0_3.index t (1 : Fin 2) = 1
    ∧ win0_4.index t (0 : Fin 2) ≤ 7 ∧ win0_4.index t (1 : Fin 2) = 0 :=
  (by decide +kernel : ∀ t : Fin grid0.N, _)

/-- Every row block is some writing point's. -/
theorem idx_onto : ∀ q : Fin 8, ∃ t : Fin cfg0.N, win0_4.flush t = true ∧ win0_4.index t (0 : Fin 2) = q.val :=
  (by decide +kernel : ∀ q : Fin 8, ∃ t : Fin grid0.N, win0_4.flush t = true ∧ win0_4.index t (0 : Fin 2) = q.val)

/-! ## The input blocks, read at an index -/

theorem features_apply (c : Dev nD) (k : Fin 4096) (l : Fin 512) :
    iblk m c 0 t0_0 (ix2 k l) = m ((c : Thread nD τ).loc main_arg0) (ix2 k l) := by
  obtain ⟨e0, e1, -⟩ := idx_facts t0_0
  show V m c main_arg0 (((cfg0.win 0).blk t0_0).view.emb (ix2 k l)) = V m c main_arg0 (ix2 k l)
  refine congrArg (V m c main_arg0) (funext fun a => Fin.ext ?_)
  match a with
  | ⟨0, _⟩ => show win0_0.index t0_0 (0 : Fin 2) * 4096 + 1 * k.val = k.val; omega
  | ⟨1, _⟩ => show win0_0.index t0_0 (1 : Fin 2) * 512 + 1 * l.val = l.val; omega

theorem weights_apply (c : Dev nD) (l : Fin 512) (j : Fin 512) :
    iblk m c 1 t0_0 (ix2 l j) = m ((c : Thread nD τ).loc main_arg2) (ix2 l j) := by
  obtain ⟨-, -, e0, e1, -⟩ := idx_facts t0_0
  show V m c main_arg2 (((cfg0.win 1).blk t0_0).view.emb (ix2 l j)) = V m c main_arg2 (ix2 l j)
  refine congrArg (V m c main_arg2) (funext fun a => Fin.ext ?_)
  match a with
  | ⟨0, _⟩ => show win0_1.index t0_0 (0 : Fin 2) * 512 + 1 * l.val = l.val; omega
  | ⟨1, _⟩ => show win0_1.index t0_0 (1 : Fin 2) * 512 + 1 * j.val = j.val; omega

/-- The kept product is the projected features. -/
theorem kept_apply (c : Dev nD) (k : Fin 4096) (j : Fin 512) :
    kept m c (ix2 k j) = proj (m ((c : Thread nD τ).loc main_arg0)) (m ((c : Thread nD τ).loc main_arg2)) k j := by
  unfold kept proj
  refine (product_apply _ _ k j).trans ?_
  exact Finset.sum_congr rfl fun l _ => congrArg₂ (· * ·) (features_apply m c k l) (weights_apply m c l j)

/-! ## What a point writes back -/

/-- WHAT POINT `t` WRITES BACK is block `t` of the aggregate. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after4]
  obtain ⟨-, -, -, -, e20, e21, e30, e31, e40, e41⟩ := idx_facts t
  funext y
  obtain ⟨r, j, rfl⟩ : ∃ (r : Fin 512) (j : Fin 512), y = ix2 r j := ⟨y 0, y 1, eq_ix2 y⟩
  have hr := r.isLt
  show outAt m c t (ix2 r j) = G m c (((cfg0.win 4).blk t).view.emb (ix2 r j))
  have hemb : ((cfg0.win 4).blk t).view.emb (ix2 r j)
      = ix2 (⟨win0_4.index t (0 : Fin 2) * 512 + r.val, by omega⟩ : Fin 4096) j := by
    funext a; apply Fin.ext
    match a with
    | ⟨0, _⟩ => show win0_4.index t (0 : Fin 2) * 512 + 1 * r.val = win0_4.index t (0 : Fin 2) * 512 + r.val; omega
    | ⟨1, _⟩ => show win0_4.index t (1 : Fin 2) * 512 + 1 * j.val = j.val; omega
  rw [hemb]
  unfold outAt G
  refine quotient_eq_aggregate _ _ _ _ _ _ _ r ?_ ?_ (kept_apply m c) j
  · intro k
    show V m c main_arg1 (((cfg0.win 2).blk t).view.emb (ix2 r k)) = V m c main_arg1 _
    refine congrArg (V m c main_arg1) (funext fun a => Fin.ext ?_)
    match a with
    | ⟨0, _⟩ => show win0_2.index t (0 : Fin 2) * 512 + 1 * r.val = win0_4.index t (0 : Fin 2) * 512 + r.val; omega
    | ⟨1, _⟩ => show win0_2.index t (1 : Fin 2) * 2048 + 1 * k.val = k.val; omega
  · intro k
    show V m c main_arg1 (((cfg0.win 3).blk t).view.emb (ix2 r k)) = V m c main_arg1 _
    refine congrArg (V m c main_arg1) (funext fun a => Fin.ext ?_)
    match a with
    | ⟨0, _⟩ => show win0_3.index t (0 : Fin 2) * 512 + 1 * r.val = win0_4.index t (0 : Fin 2) * 512 + r.val; omega
    | ⟨1, _⟩ => show win0_3.index t (1 : Fin 2) * 2048 + 1 * k.val = 2048 + k.val; omega

/-! ## The blocks cover the array -/

/-- An index of the array is in point `t`'s block iff each coordinate is in the block's range on its axis. -/
theorem mem_blk (t : Fin cfg0.N) (i : S4096x512.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v0).slice (win0_4.rect t)).set ↔ _
  rw [View.set_slice_whole, Rect.mem_set_unit]
  exact Iff.rfl

/-- Row i lies in row block i / 512, which the point after it writes back. -/
theorem cover (i : S4096x512.Idx) : ∃ t : Fin cfg0.N, (cfg0.win 4).flush t = true ∧ i ∈ ((cfg0.win 4).blk t).view.set := by
  have hi0 : (i 0).val < 4096 := (i 0).isLt
  have hi1 : (i 1).val < 512 := (i 1).isLt
  obtain ⟨t, hf, hq⟩ := idx_onto ⟨(i 0).val / 512, by omega⟩
  obtain ⟨-, -, -, -, -, -, -, -, -, e41⟩ := idx_facts t
  have hq' : win0_4.index t (0 : Fin 2) = (i 0).val / 512 := hq
  refine ⟨t, hf, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-- THE ARRAY after the run: the aggregate of the argument arrays. -/
theorem final (c : Dev nD) : (dats m 0 c).arrAt 4 cfg0.N = G m c :=
  (dats m 0 c).arrAt_eq_of_cover 4 (G m c) (fun t _ => flushed_eq m c t) cover

/-! ## The run, read -/

/-- Every weakly fair execution of the kernel's @main ends with the result array at the aggregate of the argument
    arrays, and these unchanged. -/
theorem run : θ_run defs (onTc (τ := τ) (main (F := Ideal))) ⟨m, fun _ => 0, ρ⟩ fun r => ∀ c : Dev nD,
      r.2.mem ((c.tc : Thread nD τ).loc main_v0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨(h c 4).trans (final m c),
     (h c 0).trans (((dats m 0 c).arrAt_in 0 rfl _).trans (A_eq m c 0)),
     (h c 2).trans (((dats m 0 c).arrAt_in 2 rfl _).trans (A_eq m c 2)),
     (h c 1).trans (((dats m 0 c).arrAt_in 1 rfl _).trans (A_eq m c 1))⟩) (run_main m ρ)

end Cert.KernelIdeal.ValueAt

end
-- ==== Proof.Reference.lean ====
/-
  The reference computes the aggregate.

  Its seven host operations, read at an index (i, j): the product x·w at (k, j) is Σ_l x (k, l) · w (l, j); the row sum of
  the adjacency started from the zero word is 0 + Σ_k a (i, k); the two broadcasts read that sum at (i, j); the second
  product is Σ_k a (i, k) · (x·w) (k, j); the quotient divides the one by the other.
-/
import proofs.«162927_g35794257445170_cont_sun_m_1054_16_alg».proof.Proof.Gen.ReferenceIdeal.Read
import proofs.«162927_g35794257445170_cont_sun_m_1054_16_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.Spec

/-- The reference's result, as a function of its three arguments, is the aggregate. -/
theorem reference_eq (x0 : (⟨S4096x512, .f32⟩ : BufTy).Contents (Elt Ideal)) (x1 : (⟨S4096x4096, .f32⟩ : BufTy).Contents (Elt Ideal))
    (x2 : (⟨S512x512, .f32⟩ : BufTy).Contents (Elt Ideal)) :
    val_main_v5 (F := Ideal) x0 x1 x2 = aggregate x0 x1 x2 := by
  funext i
  obtain ⟨p, j, rfl⟩ : ∃ (p : Fin 4096) (j : Fin 512), i = ix2 p j := ⟨i 0, i 1, eq_ix2 i⟩
  have e3l : ∀ k : Fin 4096, lidx_main_v3 (ix2 p j) k = ix2 p k := fun k =>
    funext fun a => Fin.ext (by match a with | ⟨0, _⟩ => rfl | ⟨1, _⟩ => rfl)
  have e3r : ∀ k : Fin 4096, ridx_main_v3 (ix2 p j) k = ix2 k j := fun k =>
    funext fun a => Fin.ext (by match a with | ⟨0, _⟩ => rfl | ⟨1, _⟩ => rfl)
  have e0l : ∀ (k : Fin 4096) (l : Fin 512), lidx_main_v0 (ix2 k j) l = ix2 k l := fun k l =>
    funext fun a => Fin.ext (by match a with | ⟨0, _⟩ => rfl | ⟨1, _⟩ => rfl)
  have e0r : ∀ (k : Fin 4096) (l : Fin 512), ridx_main_v0 (ix2 k j) l = ix2 l j := fun k l =>
    funext fun a => Fin.ext (by match a with | ⟨0, _⟩ => rfl | ⟨1, _⟩ => rfl)
  have e1 : ∀ k : Fin 4096, idx_main_v1 (idx_main_v2 (idx_main_v4 (ix2 p j))) k = ix2 p k := fun k =>
    funext fun a => Fin.ext (by match a with | ⟨0, _⟩ => rfl | ⟨1, _⟩ => rfl)
  rw [val_main_v5_apply, val_main_v3_apply, val_main_v4_apply, val_main_v2_apply, val_main_v1_apply]
  simp only [val_main_v0_apply, val_main_cst_apply, e3l, e3r, e0l, e0r, e1, Ideal.hostDivf_def, Ideal.ofBits_def,
    Ideal.ofBits_zero_f32, zero_add]
  rfl

end Cert.ReferenceIdeal.RefValue

end
-- ==== Proof.lean ====
/-
  Mean aggregation over a graph: for features x : [4096, 512], adjacency a : [4096, 4096] and weights w : [512, 512],

      out (i, j) = ( Σ_k a (i, k) · (x·w) (k, j) ) / ( Σ_k a (i, k) ).

  The kernel runs a grid of nine points. At point 0 it forms x·w from its two resident blocks and keeps it in a scratch
  buffer; at point s ≥ 1 it reads rows [512 (s-1), 512 s) of the adjacency as two half rows — columns [0, 2048) and
  [2048, 4096), the adjacency reaching it through two windows on the one array —, multiplies each half against the matching
  half of the kept product, adds, and divides by the sum of the two half-row sums; that block of the result is written back.
  The reference forms x·w, the row sums, the product a·(x·w) and the quotient on whole arrays.

  On the extended reals the changes of float format are the identity, so the two agree entry by entry by ONE law: a sum
  over the 4096 columns is the sum over the first half plus the sum over the second, once in the numerator and once in the
  denominator. Nothing is distributed or cancelled, so the finiteness of the inputs is never used.

  The frames: the kernel's run is the pipelined launch with the adjacency's buffer held half and half by its two windows
  (both only read it); the scratch buffer holds anything before the first point and x·w after it; the output's buffer is
  left alone at point 0, which writes nothing back. The same proof, read at the word-level values and at the extended reals,
  gives the two kernel frames; the reference's frame is its run with the result dropped. The idealization rewrote no
  operation, so there is nothing to preserve.
-/
import proofs.«162927_g35794257445170_cont_sun_m_1054_16_alg».proof.Defs
import proofs.«162927_g35794257445170_cont_sun_m_1054_16_alg».proof.Proof.Gen.Kernel
import proofs.«162927_g35794257445170_cont_sun_m_1054_16_alg».proof.Proof.Gen.Kernel.Skeleton
import proofs.«162927_g35794257445170_cont_sun_m_1054_16_alg».proof.Proof.Gen.Kernel.Launch
import proofs.«162927_g35794257445170_cont_sun_m_1054_16_alg».proof.Proof.Gen.Kernel.Points
import proofs.«162927_g35794257445170_cont_sun_m_1054_16_alg».proof.Proof.Gen.KernelIdeal
import proofs.«162927_g35794257445170_cont_sun_m_1054_16_alg».proof.Proof.Gen.KernelIdeal.Skeleton
import proofs.«162927_g35794257445170_cont_sun_m_1054_16_alg».proof.Proof.Gen.KernelIdeal.Launch
import proofs.«162927_g35794257445170_cont_sun_m_1054_16_alg».proof.Proof.Gen.KernelIdeal.Points
import proofs.«162927_g35794257445170_cont_sun_m_1054_16_alg».proof.Proof.Gen.ReferenceIdeal
import proofs.«162927_g35794257445170_cont_sun_m_1054_16_alg».proof.Proof.Gen.Pre_finite_inputs
import proofs.«162927_g35794257445170_cont_sun_m_1054_16_alg».proof.Proof.Gen.ReferenceIdeal.Run
import proofs.«162927_g35794257445170_cont_sun_m_1054_16_alg».proof.Proof.Gen.ReferenceIdeal.Read
import proofs.«162927_g35794257445170_cont_sun_m_1054_16_alg».proof.Proof.K.Run
import proofs.«162927_g35794257445170_cont_sun_m_1054_16_alg».proof.Proof.KI.Run
import proofs.«162927_g35794257445170_cont_sun_m_1054_16_alg».proof.Proof.Blocks
import proofs.«162927_g35794257445170_cont_sun_m_1054_16_alg».proof.Proof.Reference
import Idealize.ShloMosaic.Adequacy
import Idealize.ShloMosaic.Init

noncomputable section

namespace Cert.Proof

open Idealize.ShloMosaic Idealize.SL.Sem

/-- The word-level kernel runs to the end and leaves its three argument arrays as they were. -/
theorem frame_kernel : Cert.frame_Kernel := fun m ρ _ => Cert.Kernel.Hand.frame m ρ

/-- So does the kernel read on the extended reals. -/
theorem frame_kernelIdeal : Cert.frame_KernelIdeal := fun m ρ _ => Cert.KernelIdeal.Hand.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the aggregate of the (agreeing) argument arrays in their result. -/
theorem algebraic : Cert.algebraic_KernelIdeal_ReferenceIdeal := by
  intro m ρ m' ρ' _ hagree
  refine ⟨fun c => Cert.KernelIdeal.ValueAt.G m c, Cert.KernelIdeal.ValueAt.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.reference_eq, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
